-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S1x2048 : S_.BroadcastsInDim S1x2048 (![] : Fin 0 → Fin S1x2048.rank)
  reducesTo_S1x2048_S_d0_1 : S1x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S1x2048 .f32) (main_arg5 : FVec F S2048x2048 .f32) (main_arg6 : FVec F S2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048x2048 .f32) (main_arg3 : FVec F S1x2048 .f32) (main_arg4 : FVec F S1x2048 .f32) (main_arg5 : FVec F S2048x2048 .f32) (main_arg6 : FVec F S2048 .f32) (main_arg7 : IVec S4096x2048 32) (main_arg8 : IVec S4096x2048 32) (main_arg9 : IVec S4096x2048 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S256x512 : Shape := ⟨2, ![256, 512]⟩
abbrev S512x2048 : Shape := ⟨2, ![512, 2048]⟩
abbrev S256x2048 : Shape := ⟨2, ![256, 2048]⟩

abbrev nBuf : Space → Nat
  | .hbm => 45
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048, .f32⟩
  | .hbm, ⟨7, _⟩ => ⟨S4096x2048, .i32⟩
  | .hbm, ⟨8, _⟩ => ⟨S4096x2048, .i32⟩
  | .hbm, ⟨9, _⟩ => ⟨S4096x2048, .i32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .i1⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .bf16⟩
  | .hbm, ⟨26, _⟩ => ⟨S2048x2048, .bf16⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S2048, .f32⟩
  | .hbm, ⟨32, _⟩ => ⟨S2048, .f32⟩
  | .hbm, ⟨33, _⟩ => ⟨S2048, .i1⟩
  | .hbm, ⟨34, _⟩ => ⟨S2048, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S1x2048, .f32⟩
  | .hbm, ⟨44, _⟩ => ⟨S4096x2048, .f32⟩
  | .local _ .vmem, ⟨0, _⟩ => ⟨S256x512, .f32⟩
  | .local _ .vmem, ⟨1, _⟩ => ⟨S256x512, .f32⟩
  | .local _ .vmem, ⟨2, _⟩ => ⟨S256x512, .i32⟩
  | .local _ .vmem, ⟨3, _⟩ => ⟨S256x512, .i32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .i32⟩
  | .local _ .vmem, ⟨9, _⟩ => ⟨S256x2048, .i32⟩
  | .local _ .vmem, ⟨10, _⟩ => ⟨S256x2048, .i32⟩
  | .local _ .vmem, ⟨11, _⟩ => ⟨S256x2048, .i32⟩
  | .local _ .vmem, ⟨12, _⟩ => ⟨S1x2048, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_call1_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v24 : BitVec 1 := Scalar.cmpi .eq arg1 c3_i32
  let v25 : BitVec 32 := Scalar.extui v24
  let c0_i32_17 : BitVec 32 := 0#32
  let v26 : BitVec 1 := Scalar.cmpi .ne v25 c0_i32_17
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S_S2048x2048 : S_.BroadcastsInDim S2048x2048 (![] : Fin 0 → Fin S2048x2048.rank)
  bitsLt_bf16_f32 : FTy.bits .bf16 < FTy.bits .f32
  shapeCasts_S1x2048_S2048 : S1x2048.ShapeCasts S2048
  bcast_S_S2048 : S_.BroadcastsInDim S2048 (![] : Fin 0 → Fin S2048.rank)
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x512_S256x512_0_0 : ∀ a, (![0, 0] : Fin 2 → Nat) a + S256x512.size a ≤ S256x512.size a
  h_S256x512 : 0 < S256x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x2048.size a
  hwx0_0 : ∀ i : grid0.Coords, EltTy.bits .f32 = 32 ∨ (Rect.block (s := S4096x2048) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S4096x2048.size a
  hwx0_1 : ∀ i : grid0.Coords, EltTy.bits .i32 = 32 ∨ (Rect.block (s := S4096x2048) S256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .bf16 = 32 ∨ (Rect.block (s := S2048x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S2048x2048.size a
  hwx0_3 : ∀ i : grid0.Coords, EltTy.bits .bf16 = 32 ∨ (Rect.block (s := S2048x2048) S512x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .i32 = 32 ∨ (Rect.block (s := S4096x2048) S256x2048.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .i32 = 32 ∨ (Rect.block (s := S4096x2048) S256x2048.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S4096x2048.size a
  hwx0_8 : ∀ i : grid0.Coords, EltTy.bits .f32 = 32 ∨ (Rect.block (s := S4096x2048) S256x2048.size (cc0_transform_8 i) (hinb0_8 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S2048x2048, .f32⟩
  | .hbm, ⟨6, _⟩ => ⟨S2048, .f32⟩
  | .hbm, ⟨7, _⟩ => ⟨S4096x2048, .i32⟩
  | .hbm, ⟨8, _⟩ => ⟨S4096x2048, .i32⟩
  | .hbm, ⟨9, _⟩ => ⟨S4096x2048, .i32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .i1⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048, .f32⟩
  | .hbm, ⟨38, _⟩ => ⟨S2048, .f32⟩
  | .hbm, ⟨39, _⟩ => ⟨S2048, .i1⟩
  | .hbm, ⟨40, _⟩ => ⟨S2048, .f32⟩
  | .hbm, ⟨41, _⟩ => ⟨S2048, .f32⟩
  | .hbm, ⟨42, _⟩ => ⟨S2048, .f32⟩
  | .hbm, ⟨43, _⟩ => ⟨S2048, .f32⟩
  | .hbm, ⟨44, _⟩ => ⟨S2048, .f32⟩
  | .hbm, ⟨45, _⟩ => ⟨S2048, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  shapeCasts_S1x2048_S2048 : S1x2048.ShapeCasts S2048
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Pieces.lean ====
/-
  What each control case of the kernel body leaves behind, as plain terms of the blocks it was given.

  The body keeps two running sums in scratch memory. At the first step of a row block's run (k = 0) it first
  stores zeros, so each scratch ends at the zero block plus this step's matrix product; at every later step it
  ends at what the step before left plus this step's product. At the last step (k = 3) the output block is
  written once, from the two finished sums, the two sign blocks, the bias row and the sampled bias row.
  These lemmas hold for any reading of the float operations.
-/
import proofs.«174170_j45114336477600_2_alg».proof.Proof.Gen.KernelIdeal.Frame
import Idealize.ShloMosaic.Lib.Pipeline.Value
import Idealize.ShloMosaic.Lib.Tactic

noncomputable section

namespace Cert.KernelIdeal.Found

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

variable (c : Dev nD) (i : grid0.Coords)
  (a2 : Memref sig .tc .vmem S256x512 .f32) (h2 : a2.IsWhole) (a3 : Memref sig .tc .vmem S256x512 .i32) (h3 : a3.IsWhole)
  (a4 : Memref sig .tc .vmem S512x2048 .bf16) (h4 : a4.IsWhole) (a5 : Memref sig .tc .vmem S512x2048 .bf16) (h5 : a5.IsWhole)
  (a6 : Memref sig .tc .vmem S256x2048 .i32) (h6 : a6.IsWhole) (a7 : Memref sig .tc .vmem S256x2048 .i32) (h7 : a7.IsWhole)
  (a8 : Memref sig .tc .vmem S1x2048 .f32) (h8 : a8.IsWhole) (a9 : Memref sig .tc .vmem S1x2048 .f32) (h9 : a9.IsWhole)
  (a10 : Memref sig .tc .vmem S256x2048 .f32) (h10 : a10.IsWhole) (a11 : Memref sig .tc .vmem S256x2048 .f32) (h11 : a11.IsWhole)
  (a12 : Memref sig .tc .vmem S256x2048 .f32) (h12 : a12.IsWhole)
variable (x0 : Vec F S256x512 .f32) (x1 : Vec F S256x512 .i32) (x2 : Vec F S512x2048 .bf16) (x3 : Vec F S512x2048 .bf16)
  (x4 : Vec F S256x2048 .i32) (x5 : Vec F S256x2048 .i32) (x6 : Vec F S1x2048 .f32) (x7 : Vec F S1x2048 .f32)

/-- First step of a run: the first running sum ends at the zero block plus this step's product of the
    activations' block with the mean weights' block. -/
theorem first_A (hc0 : cond0_0 i) (hc1 : ¬cond0_1 i) :
    sout0_A_0 c i a2 h2 a3 h3 a4 h4 a5 h5 a6 h6 a7 h7 a8 h8 a9 h9 a10 h10 a11 h11 a12 h12 hc0 hc1 x0 x1 x2 x3 x4 x5 x6 x7 = k0_pay4 x0 x2 (k0_pay1 (F := F)) := by
  unfold sout0_A_0
  rw [View.read_writes_eq_canon _ _ _ (scover0_A_0 c i a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_cons_unit_zero (S := S256x2048) hz, View.readCov_unit_zero (S := S256x2048) _ hz]
  simp only [View.readAt_eq_ld, h2.read_unread, h3.read_unread, h4.read_unread, h5.read_unread, h6.read_unread, h7.read_unread, h8.read_unread, h9.read_unread, h11.read_unread, h12.read_unread, View.ld_unit_zero (S := S256x512) hz, View.ld_unit_zero (S := S512x2048) hz, View.ld_unit_zero (S := S256x2048) hz, View.ld_unit_zero (S := S1x2048) hz]

/-- First step of a run: the second running sum ends at the zero block plus this step's product of the
    sign-flipped activations' block with the sampled weights' block. -/
theorem second_A (hc0 : cond0_0 i) (hc1 : ¬cond0_1 i) :
    sout0_A_1 c i a2 h2 a3 h3 a4 h4 a5 h5 a6 h6 a7 h7 a8 h8 a9 h9 a10 h10 a11 h11 a12 h12 hc0 hc1 x0 x1 x2 x3 x4 x5 x6 x7 = k0_pay5 x0 x1 x3 (k0_pay2 (F := F)) := by
  unfold sout0_A_1
  rw [View.read_writes_eq_canon _ _ _ (scover0_A_1 c i a2 h2 a3 h3 a4 h4 a5 h5 a6 h6 a7 h7 a8 h8 a9 h9 a10 h10 a11 h11 a12 h12 hc0 hc1 x0 x1 x2 x3 x4 x5 x6 x7)]
  unfold kernelRun0_A
  dsimp only
  sl_unfold_words
  rw [View.canon_cons_unit_zero (S := S256x2048) hz, View.readCov_unit_zero (S := S256x2048) _ hz]
  simp only [View.readAt_eq_ld, h2.read_unread, h3.read_unread, h4.read_unread, h5.read_unread, h6.read_unread, h7.read_unread, h8.read_unread, h9.read_unread, h11.read_unread, h12.read_unread, View.ld_unit_zero (S := S256x512) hz, View.ld_unit_zero (S := S512x2048) hz, View.ld_unit_zero (S := S256x2048) hz, View.ld_unit_zero (S := S1x2048) hz]

variable (xs0 xs1 : Vec F S256x2048 .f32)

/-- A middle step: the first running sum ends at what the step before left plus this step's product. -/
theorem first_B (hc0 : ¬cond0_0 i) (hc1 : ¬cond0_1 i) :
    sout0_B_0 c i a2 h2 a3 h3 a4 h4 a5 h5 a6 h6 a7 h7 a8 h8 a9 h9 a10 h10 a11 h11 a12 h12 hc0 hc1 x0 x1 x2 x3 x4 x5 x6 x7 xs0 xs1 = k0_pay4 x0 x2 xs0 := by
  unfold sout0_B_0
  rw [View.read_writes_eq_canon _ _ _ (scover0_B_0 c i a2 h2 a3 h3 a4 h4 a5 h5 a6 h6 a7 h7 a8 h8 a9 h9 a10 h10 a11 h11 a12 h12 hc0 hc1 x0 x1 x2 x3 x4 x5 x6 x7 xs0 xs1)]
  unfold kernelRun0_B
  dsimp only
  rw [View.canon_unit_zero hz]
  simp only [View.readAt_eq_ld, h2.read_unread, h3.read_unread, h4.read_unread, h5.read_unread, h6.read_unread, h7.read_unread, h8.read_unread, h9.read_unread, h11.read_unread, h12.read_unread, View.ld_unit_zero (S := S256x512) hz, View.ld_unit_zero (S := S512x2048) hz, View.ld_unit_zero (S := S256x2048) hz, View.ld_unit_zero (S := S1x2048) hz]

/-- A middle step: the second running sum likewise. -/
theorem second_B (hc0 : ¬cond0_0 i) (hc1 : ¬cond0_1 i) :
    sout0_B_1 c i a2 h2 a3 h3 a4 h4 a5 h5 a6 h6 a7 h7 a8 h8 a9 h9 a10 h10 a11 h11 a12 h12 hc0 hc1 x0 x1 x2 x3 x4 x5 x6 x7 xs0 xs1 = k0_pay5 x0 x1 x3 xs1 := by
  unfold sout0_B_1
  rw [View.read_writes_eq_canon _ _ _ (scover0_B_1 c i a2 h2 a3 h3 a4 h4 a5 h5 a6 h6 a7 h7 a8 h8 a9 h9 a10 h10 a11 h11 a12 h12 hc0 hc1 x0 x1 x2 x3 x4 x5 x6 x7 xs0 xs1)]
  unfold kernelRun0_B
  dsimp only
  rw [View.canon_unit_zero hz]
  simp only [View.readAt_eq_ld, h2.read_unread, h3.read_unread, h4.read_unread, h5.read_unread, h6.read_unread, h7.read_unread, h8.read_unread, h9.read_unread, h11.read_unread, h12.read_unread, View.ld_unit_zero (S := S256x512) hz, View.ld_unit_zero (S := S512x2048) hz, View.ld_unit_zero (S := S256x2048) hz, View.ld_unit_zero (S := S1x2048) hz]

/-- The last step accumulates into the first running sum exactly as a middle step does. -/
theorem first_C (hc0 : ¬cond0_0 i) (hc1 : cond0_1 i) :
    sout0_C_0 c i a2 h2 a3 h3 a4 h4 a5 h5 a6 h6 a7 h7 a8 h8 a9 h9 a10 h10 a11 h11 a12 h12 hc0 hc1 x0 x1 x2 x3 x4 x5 x6 x7 xs0 xs1 = k0_pay4 x0 x2 xs0 := by
  unfold sout0_C_0
  rw [View.read_writes_eq_canon _ _ _ (scover0_C_0 c i a2 h2 a3 h3 a4 h4 a5 h5 a6 h6 a7 h7 a8 h8 a9 h9 a10 h10 a11 h11 a12 h12 hc0 hc1 x0 x1 x2 x3 x4 x5 x6 x7 xs0 xs1)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h11.read_unread, h12.read_unread, View.ld_unit_zero (S := S256x512) hz, View.ld_unit_zero (S := S512x2048) hz, View.ld_unit_zero (S := S256x2048) hz, View.ld_unit_zero (S := S1x2048) hz]

/-- … and into the second. -/
theorem second_C (hc0 : ¬cond0_0 i) (hc1 : cond0_1 i) :
    sout0_C_1 c i a2 h2 a3 h3 a4 h4 a5 h5 a6 h6 a7 h7 a8 h8 a9 h9 a10 h10 a11 h11 a12 h12 hc0 hc1 x0 x1 x2 x3 x4 x5 x6 x7 xs0 xs1 = k0_pay5 x0 x1 x3 xs1 := by
  unfold sout0_C_1
  rw [View.read_writes_eq_canon _ _ _ (scover0_C_1 c i a2 h2 a3 h3 a4 h4 a5 h5 a6 h6 a7 h7 a8 h8 a9 h9 a10 h10 a11 h11 a12 h12 hc0 hc1 x0 x1 x2 x3 x4 x5 x6 x7 xs0 xs1)]
  unfold kernelRun0_C
  dsimp only
  sl_unfold_words
  rw [View.canon_unit_zero hz]
  simp only [View.readAt_eq_ld, h2.read_unread, h3.read_unread, h4.read_unread, h5.read_unread, h6.read_unread, h7.read_unread, h8.read_unread, h9.read_unread, h11.read_unread, h12.read_unread, View.ld_unit_zero (S := S256x512) hz, View.ld_unit_zero (S := S512x2048) hz, View.ld_unit_zero (S := S256x2048) hz, View.ld_unit_zero (S := S1x2048) hz]

/-- The last step then writes the output block: the two finished sums (this step's product included) combined
    with the two sign blocks, the bias row and the sampled bias row. -/
theorem out_C (hc0 : ¬cond0_0 i) (hc1 : cond0_1 i) :
    out0_C_8 c i a2 h2 a3 h3 a4 h4 a5 h5 a6 h6 a7 h7 a8 h8 a9 h9 a10 h10 a11 h11 a12 h12 hc0 hc1 x0 x1 x2 x3 x4 x5 x6 x7 xs0 xs1
      = k0_pay6 x4 x5 x6 x7 (k0_pay4 x0 x2 xs0) (k0_pay5 x0 x1 x3 xs1) := by
  unfold out0_C_8
  rw [View.read_writes_eq_canon _ _ _ (cover0_C_8 c i a2 h2 a3 h3 a4 h4 a5 h5 a6 h6 a7 h7 a8 h8 a9 h9 a10 h10 a11 h11 a12 h12 hc0 hc1 x0 x1 x2 x3 x4 x5 x6 x7 xs0 xs1)]
  unfold kernelRun0_C
  dsimp only
  sl_unfold_words
  rw [View.canon_unit_zero hz]
  simp only [View.readCov_unit_zero (S := S256x2048) _ hz, View.readAt_eq_ld, h2.read_unread, h3.read_unread, h4.read_unread, h5.read_unread, h6.read_unread, h7.read_unread, h8.read_unread, h9.read_unread, h11.read_unread, h12.read_unread, View.ld_unit_zero (S := S256x512) hz, View.ld_unit_zero (S := S512x2048) hz, View.ld_unit_zero (S := S256x2048) hz, View.ld_unit_zero (S := S1x2048) hz]

end Cert.KernelIdeal.Found

end
-- ==== Proof.SumBlocks.lean ====
/-
  A sum over `Fin (n * m)` read block by block: the index `m * t + j` runs over block `t` as `j` runs over
  `Fin m`, so the whole sum is the sum over the `n` blocks of each block's sum. Only commutativity and
  associativity of the addition are used, so the law holds in any commutative additive monoid — in particular
  on the extended reals, where infinities may occur among the terms.
-/
import Mathlib.Algebra.BigOperators.Fin
import Mathlib.Logic.Equiv.Fin.Basic

namespace Cert.SumBlocks

open Finset

/-- The whole sum is the sum of the block sums; entry `j` of block `t` is the index `j + m * t`. -/
theorem sum_blocks {M : Type*} [AddCommMonoid M] (n m : ℕ) (f : Fin (n * m) → M) :
    ∑ k : Fin (n * m), f k = ∑ t : Fin n, ∑ j : Fin m, f (finProdFinEquiv (t, j)) := by
  rw [← Fintype.sum_prod_type' (f := fun t j => f (finProdFinEquiv (t, j)))]
  exact (Equiv.sum_comp finProdFinEquiv f).symm

end Cert.SumBlocks
-- ==== Proof.Spec.lean ====
/-
  The layer's output, entry by entry, as one function of the arrays it is computed from.

  For a batch row `b` and an output column `j`:
    out[b, j] = ( Σₖ x[b,k]·wl[k,j]  +  r1[b,j] · Σₖ (x[b,k]·s[b,k])·ws[k,j] )  +  ( bl[0,j] + r2[b,j]·bs[0,j] )
  where `wl` are the mean weights, `ws` the sampled weight perturbations, `bl` the mean bias row, `bs` the
  sampled bias row, and `s`, `r1`, `r2` integer sign arrays read as the integers they hold. Everything is an
  extended real; the sums run over the 2048 input features.

  The second part of this file splits each sum over the 2048 features into four consecutive stretches of 512,
  which is how a computation that walks the feature axis in four steps accumulates it. Splitting a finite sum
  into consecutive stretches uses only that addition is commutative and associative, so no entry needs to be
  finite for it.
-/
import Idealize.ShloMosaic.PureOps.Ideal
import Idealize.ShloMosaic.Lib.ValueIdx
import proofs.«174170_j45114336477600_2_alg».proof.Proof.SumBlocks

noncomputable section

namespace Cert.FlipoutDense

open Idealize.ShloMosaic Idealize.ShloMosaic.ValueIdx

/-- An integer word read as the (extended) real number it denotes as a signed integer. -/
def ofInt (b : BitVec 32) : EReal := ((b.toInt : ℝ) : EReal)

abbrev Act : Shape := ⟨2, ![4096, 2048]⟩
abbrev Wgt : Shape := ⟨2, ![2048, 2048]⟩
abbrev Row : Shape := ⟨2, ![1, 2048]⟩

variable (x : Act.Idx → EReal) (s r1 r2 : Act.Idx → BitVec 32) (wl ws : Wgt.Idx → EReal) (bl bs : Row.Idx → EReal)

/-- The mean term of entry `(b, j)`: `Σₖ x[b,k]·wl[k,j]`. -/
def meanDot (b : Fin 4096) (j : Fin 2048) : EReal := ∑ k : Fin 2048, x (ix2 b k) * wl (ix2 k j)

/-- The perturbation term of entry `(b, j)` before its sign: `Σₖ (x[b,k]·s[b,k])·ws[k,j]`. -/
def pertDot (b : Fin 4096) (j : Fin 2048) : EReal := ∑ k : Fin 2048, (x (ix2 b k) * ofInt (s (ix2 b k))) * ws (ix2 k j)

/-- Entry `(b, j)` of the output. -/
def entry (b : Fin 4096) (j : Fin 2048) : EReal :=
  (meanDot x wl b j + ofInt (r1 (ix2 b j)) * pertDot x s ws b j) + (bl (ix2 0 j) + ofInt (r2 (ix2 b j)) * bs (ix2 0 j))

/-- The whole output array. -/
def output : Act.Idx → EReal := fun i => entry x s r1 r2 wl ws bl bs (i 0) (i 1)

/-- Row `r` of row block `q` (256 rows each) is batch row `256·q + r`. -/
def row (q : Fin 16) (r : Fin 256) : Fin 4096 := ⟨256 * q.val + r.val, by have := q.isLt; have := r.isLt; omega⟩

/-- Feature `k'` of stretch `t` is feature `k' + 512·t`. -/
def feat (t : Fin 4) (k' : Fin 512) : Fin 2048 := ⟨k'.val + 512 * t.val, by have := t.isLt; have := k'.isLt; omega⟩

theorem feat_eq (t : Fin 4) (k' : Fin 512) : feat t k' = (finProdFinEquiv (t, k') : Fin (4 * 512)) := Fin.ext rfl

/-- A sum over the 2048 features is the sum over the four stretches of each stretch's sum. -/
theorem sum_features (f : Fin 2048 → EReal) : ∑ k : Fin 2048, f k = ∑ t : Fin 4, ∑ k' : Fin 512, f (feat t k') := by
  rw [show (∑ k : Fin 2048, f k) = ∑ k : Fin (4 * 512), f k from rfl, Cert.SumBlocks.sum_blocks 4 512 f]
  exact Finset.sum_congr rfl fun t _ => Finset.sum_congr rfl fun k' _ => by rw [feat_eq]

/-- The mean term accumulated stretch by stretch. -/
theorem meanDot_blocks (b : Fin 4096) (j : Fin 2048) :
    meanDot x wl b j = ∑ t : Fin 4, ∑ k' : Fin 512, x (ix2 b (feat t k')) * wl (ix2 (feat t k') j) :=
  sum_features _

/-- The perturbation term accumulated stretch by stretch. -/
theorem pertDot_blocks (b : Fin 4096) (j : Fin 2048) :
    pertDot x s ws b j
      = ∑ t : Fin 4, ∑ k' : Fin 512, (x (ix2 b (feat t k')) * ofInt (s (ix2 b (feat t k')))) * ws (ix2 (feat t k') j) :=
  sum_features _

end Cert.FlipoutDense

end
-- ==== Proof.AtIndex.lean ====
/-
  The kernel body's stored values read at one entry, with every float operation exact (extended reals).

  At local row `r` and column `j` of a 256×2048 block:
    * a step of the first running sum is  acc[r,j] + Σ_{k<512} x[r,k]·w[k,j];
    * a step of the second is            acc[r,j] + Σ_{k<512} (x[r,k]·s[r,k])·w[k,j]  (s an integer sign, read exactly);
    * the zero block is 0 everywhere;
    * the final value is (a1[r,j] + r1[r,j]·a2[r,j]) + (bl[0,j] + r2[r,j]·bs[0,j]).
  Rounding to the narrower float format before the matrix product is the identity on exact values, and the
  matrix product into a zero accumulator is the plain sum of products over the shared axis.
-/
import proofs.«174170_j45114336477600_2_alg».proof.Proof.Gen.KernelIdeal.Skeleton
import proofs.«174170_j45114336477600_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AtIndex

open Cert.KernelIdeal Cert.KernelIdeal.Gen Idealize.ShloMosaic Idealize.ShloMosaic.ValueIdx
open Cert.FlipoutDense (ofInt)

/-- The dimension record of the body's matrix products: [256,512] × [512,2048] → [256,2048], contracting the shared axis. -/
abbrev D := dot_S256x512_S512x2048_S256x2048_1_0_0_1_n_n

theorem lhs0 (i : S256x2048.Idx) (q : D.contr.Idx) : (D.lhsIdx i q 0).val = (i 0).val := by
  unfold DotDims.lhsIdx
  rw [dif_neg (show ¬(0 : Fin S256x512.rank) ∈ D.lhsBatch by decide), dif_pos (show (0 : Fin S256x512.rank) ∈ D.lhsNonContracting by decide)]
  rfl
theorem lhs1 (i : S256x2048.Idx) (q : D.contr.Idx) : (D.lhsIdx i q 1).val = (q ⟨0, by decide⟩).val :=
  D.lhsIdx_val_of_single rfl i q
theorem rhs0 (i : S256x2048.Idx) (q : D.contr.Idx) : (D.rhsIdx i q 0).val = (q ⟨0, by decide⟩).val :=
  D.rhsIdx_val_of_single rfl i q
theorem rhs1 (i : S256x2048.Idx) (q : D.contr.Idx) : (D.rhsIdx i q 1).val = (i 1).val := by
  unfold DotDims.rhsIdx
  rw [dif_neg (show ¬(1 : Fin S512x2048.rank) ∈ D.rhsBatch by decide), dif_pos (show (1 : Fin S512x2048.rank) ∈ D.rhsNonContracting by decide)]
  rfl

/-- The matrix product into a zero accumulator, at entry `(r, j)`: the sum over the 512 shared features. -/
theorem matmul_zero_apply (l : FVec Ideal S256x512 .bf16) (w : FVec Ideal S512x2048 .bf16) (r : Fin 256) (j : Fin 2048) :
    matmul D none l w (constant (F := Ideal) S256x2048 .f32 0x00000000#32) (ix2 r j) = ∑ k : Fin 512, l (ix2 r k) * w (ix2 k j) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 r j) ((contrEquiv1 D 512 rfl rfl).symm k) = ix2 r k := funext fun a => Fin.ext (by
    match a with
    | ⟨0, _⟩ => exact lhs0 _ _
    | ⟨1, _⟩ => exact (lhs1 _ _).trans hk)
  have er : D.rhsIdx (ix2 r j) ((contrEquiv1 D 512 rfl rfl).symm k) = ix2 k j := funext fun a => Fin.ext (by
    match a with
    | ⟨0, _⟩ => exact (rhs0 _ _).trans hk
    | ⟨1, _⟩ => exact rhs1 _ _)
  rw [el, er]

/-- The zero block is zero at every entry. -/
theorem zero1_apply (y : S256x2048.Idx) : k0_pay1 (F := Ideal) y = 0 := by
  unfold k0_pay1
  simp only [shapeCast_self]
  exact Ideal.ofBits_zero_f32

theorem zero2_apply (y : S256x2048.Idx) : k0_pay2 (F := Ideal) y = 0 := by
  unfold k0_pay2
  simp only [shapeCast_self]
  exact Ideal.ofBits_zero_f32

/-- One step of the first running sum, at entry `(r, j)`. -/
theorem step1_apply (x : Vec Ideal S256x512 .f32) (w : Vec Ideal S512x2048 .bf16) (acc : Vec Ideal S256x2048 .f32)
    (r : Fin 256) (j : Fin 2048) :
    k0_pay4 x w acc (ix2 r j) = acc (ix2 r j) + ∑ k : Fin 512, x (ix2 r k) * w (ix2 k j) := by
  unfold k0_pay4 k0_pay3
  simp only [shapeCast_self]
  exact congrArg (acc (ix2 r j) + ·) (matmul_zero_apply (truncf .bf16 x bitsLt_bf16_f32) w r j)

/-- One step of the second running sum, at entry `(r, j)`. -/
theorem step2_apply (x : Vec Ideal S256x512 .f32) (s : Vec Ideal S256x512 .i32) (w : Vec Ideal S512x2048 .bf16)
    (acc : Vec Ideal S256x2048 .f32) (r : Fin 256) (j : Fin 2048) :
    k0_pay5 x s w acc (ix2 r j) = acc (ix2 r j) + ∑ k : Fin 512, (x (ix2 r k) * ofInt (s (ix2 r k))) * w (ix2 k j) := by
  unfold k0_pay5 k0_pay3
  simp only [shapeCast_self]
  exact congrArg (acc (ix2 r j) + ·)
    (matmul_zero_apply (mulf (truncf .bf16 x bitsLt_bf16_f32) (sitofp (F := Ideal) .bf16 s)) w r j)

/-- The value stored to the output block, at entry `(r, j)`. -/
theorem final_apply (r1 r2 : Vec Ideal S256x2048 .i32) (bl bs : Vec Ideal S1x2048 .f32) (a1 a2 : Vec Ideal S256x2048 .f32)
    (r : Fin 256) (j : Fin 2048) :
    k0_pay6 r1 r2 bl bs a1 a2 (ix2 r j)
      = (a1 (ix2 r j) + ofInt (r1 (ix2 r j)) * a2 (ix2 r j)) + (bl (ix2 0 j) + ofInt (r2 (ix2 r j)) * bs (ix2 0 j)) := by
  unfold k0_pay6
  simp only [shapeCast_self]
  show (a1 (ix2 r j) + ofInt (r1 (ix2 r j)) * a2 (ix2 r j))
      + (broadcastTo S256x2048 bl broadcasts_S1x2048_S256x2048 (ix2 r j)
          + ofInt (r2 (ix2 r j)) * broadcastTo S256x2048 bs broadcasts_S1x2048_S256x2048 (ix2 r j)) = _
  rw [broadcastTo_1b_ab_apply bl broadcasts_S1x2048_S256x2048 r j, broadcastTo_1b_ab_apply bs broadcasts_S1x2048_S256x2048 r j]

end Cert.KernelIdeal.AtIndex

end
-- ==== Proof.Blocks.lean ====
/-
  Which entries of the whole arrays each step's blocks are.

  The grid has 64 steps; step `t` works on row block `q = t / 4` (256 batch rows) and feature stretch
  `s = t % 4` (512 input features). At that step
    * the activations' and the first sign array's blocks are rows `256·q + r`, features `512·s + k`;
    * the two weight arrays' blocks are features `512·s + k`, all 2048 columns;
    * the other two sign arrays' blocks and the output's block are rows `256·q + r`, all columns;
    * the two bias rows are read whole.
  The output array is written back only at the last step of each row block (`t % 4 = 3`), and those sixteen
  blocks of 256 rows tile its 4096 rows.
-/
import proofs.«174170_j45114336477600_2_alg».proof.Proof.Gen.KernelIdeal.Value
import proofs.«174170_j45114336477600_2_alg».proof.Proof.Spec
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx
open Cert.FlipoutDense (row feat)

variable {F : FTy → Type} [FloatOps F]
variable (m : (ℓ : Loc nD τ sig) → Buf (Elt F) ℓ)

/-- The block index of every window at every step, in closed form (decided over the 64 steps). -/
theorem idx_facts : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = t.val % 4
    ∧ win0_2.index t (0 : Fin 2) = t.val % 4 ∧ win0_2.index t (1 : Fin 2) = 0
    ∧ win0_3.index t (0 : Fin 2) = t.val % 4 ∧ win0_3.index t (1 : Fin 2) = 0
    ∧ win0_4.index t (0 : Fin 2) = t.val / 4 ∧ win0_4.index t (1 : Fin 2) = 0
    ∧ win0_5.index t (0 : Fin 2) = t.val / 4 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val / 4 ∧ win0_8.index t (1 : Fin 2) = 0 :=
  (by decide +kernel : ∀ t : Fin grid0.N, _)

section Reads
variable (c : Dev nD) (t : Fin cfg0.N) (q : Fin 16) (s : Fin 4)

/-- The activations' block. -/
theorem rd0 (hq : t.val / 4 = q.val) (hs : t.val % 4 = s.val) (r : Fin 256) (k : Fin 512) :
    iblk m c 0 t (ix2 r k) = V m c main_arg0 (ix2 (row q r) (feat s k)) := by
  obtain ⟨e00, e01, e10, e11, e20, e21, e30, e31, e40, e41, e50, e51, e60, e61, e70, e71, e80, e81⟩ := idx_facts t
  show V m c main_arg0 (((cfg0.win 0).blk t).view.emb (ix2 r k)) = V m c main_arg0 (ix2 (row q r) (feat s k))
  refine congrArg _ (funext fun a => Fin.ext ?_)
  match a with
  | ⟨0, _⟩ => show win0_0.index t (0 : Fin 2) * 256 + 1 * r.val = 256 * q.val + r.val; rw [e00, hq]; omega
  | ⟨1, _⟩ => show win0_0.index t (1 : Fin 2) * 512 + 1 * k.val = k.val + 512 * s.val; rw [e01, hs]; omega

/-- The first sign array's block (the signs multiplying the activations). -/
theorem rd1 (hq : t.val / 4 = q.val) (hs : t.val % 4 = s.val) (r : Fin 256) (k : Fin 512) :
    iblk m c 1 t (ix2 r k) = V m c main_arg7 (ix2 (row q r) (feat s k)) := by
  obtain ⟨e00, e01, e10, e11, e20, e21, e30, e31, e40, e41, e50, e51, e60, e61, e70, e71, e80, e81⟩ := idx_facts t
  show V m c main_arg7 (((cfg0.win 1).blk t).view.emb (ix2 r k)) = V m c main_arg7 (ix2 (row q r) (feat s k))
  refine congrArg _ (funext fun a => Fin.ext ?_)
  match a with
  | ⟨0, _⟩ => show win0_1.index t (0 : Fin 2) * 256 + 1 * r.val = 256 * q.val + r.val; rw [e10, hq]; omega
  | ⟨1, _⟩ => show win0_1.index t (1 : Fin 2) * 512 + 1 * k.val = k.val + 512 * s.val; rw [e11, hs]; omega

/-- The mean weights' block. -/
theorem rd2 (hs : t.val % 4 = s.val) (k : Fin 512) (j : Fin 2048) :
    iblk m c 2 t (ix2 k j) = V m c main_v2 (ix2 (feat s k) j) := by
  obtain ⟨e00, e01, e10, e11, e20, e21, e30, e31, e40, e41, e50, e51, e60, e61, e70, e71, e80, e81⟩ := idx_facts t
  show V m c main_v2 (((cfg0.win 2).blk t).view.emb (ix2 k j)) = V m c main_v2 (ix2 (feat s k) j)
  refine congrArg _ (funext fun a => Fin.ext ?_)
  match a with
  | ⟨0, _⟩ => show win0_2.index t (0 : Fin 2) * 512 + 1 * k.val = k.val + 512 * s.val; rw [e20, hs]; omega
  | ⟨1, _⟩ => show win0_2.index t (1 : Fin 2) * 2048 + 1 * j.val = j.val; rw [e21]; omega

/-- The sampled weights' block. -/
theorem rd3 (hs : t.val % 4 = s.val) (k : Fin 512) (j : Fin 2048) :
    iblk m c 3 t (ix2 k j) = V m c main_v3 (ix2 (feat s k) j) := by
  obtain ⟨e00, e01, e10, e11, e20, e21, e30, e31, e40, e41, e50, e51, e60, e61, e70, e71, e80, e81⟩ := idx_facts t
  show V m c main_v3 (((cfg0.win 3).blk t).view.emb (ix2 k j)) = V m c main_v3 (ix2 (feat s k) j)
  refine congrArg _ (funext fun a => Fin.ext ?_)
  match a with
  | ⟨0, _⟩ => show win0_3.index t (0 : Fin 2) * 512 + 1 * k.val = k.val + 512 * s.val; rw [e30, hs]; omega
  | ⟨1, _⟩ => show win0_3.index t (1 : Fin 2) * 2048 + 1 * j.val = j.val; rw [e31]; omega

/-- The second sign array's block (the signs multiplying the perturbation term). -/
theorem rd4 (hq : t.val / 4 = q.val) (r : Fin 256) (j : Fin 2048) :
    iblk m c 4 t (ix2 r j) = V m c main_arg8 (ix2 (row q r) j) := by
  obtain ⟨e00, e01, e10, e11, e20, e21, e30, e31, e40, e41, e50, e51, e60, e61, e70, e71, e80, e81⟩ := idx_facts t
  show V m c main_arg8 (((cfg0.win 4).blk t).view.emb (ix2 r j)) = V m c main_arg8 (ix2 (row q r) j)
  refine congrArg _ (funext fun a => Fin.ext ?_)
  match a with
  | ⟨0, _⟩ => show win0_4.index t (0 : Fin 2) * 256 + 1 * r.val = 256 * q.val + r.val; rw [e40, hq]; omega
  | ⟨1, _⟩ => show win0_4.index t (1 : Fin 2) * 2048 + 1 * j.val = j.val; rw [e41]; omega

/-- The third sign array's block (the signs multiplying the sampled bias). -/
theorem rd5 (hq : t.val / 4 = q.val) (r : Fin 256) (j : Fin 2048) :
    iblk m c 5 t (ix2 r j) = V m c main_arg9 (ix2 (row q r) j) := by
  obtain ⟨e00, e01, e10, e11, e20, e21, e30, e31, e40, e41, e50, e51, e60, e61, e70, e71, e80, e81⟩ := idx_facts t
  show V m c main_arg9 (((cfg0.win 5).blk t).view.emb (ix2 r j)) = V m c main_arg9 (ix2 (row q r) j)
  refine congrArg _ (funext fun a => Fin.ext ?_)
  match a with
  | ⟨0, _⟩ => show win0_5.index t (0 : Fin 2) * 256 + 1 * r.val = 256 * q.val + r.val; rw [e50, hq]; omega
  | ⟨1, _⟩ => show win0_5.index t (1 : Fin 2) * 2048 + 1 * j.val = j.val; rw [e51]; omega

/-- The mean bias row, read whole. -/
theorem rd6 (u : Fin 1) (j : Fin 2048) :
    iblk m c 6 t (ix2 u j) = V m c main_arg3 (ix2 u j) := by
  obtain ⟨e00, e01, e10, e11, e20, e21, e30, e31, e40, e41, e50, e51, e60, e61, e70, e71, e80, e81⟩ := idx_facts t
  show V m c main_arg3 (((cfg0.win 6).blk t).view.emb (ix2 u j)) = V m c main_arg3 (ix2 u j)
  refine congrArg _ (funext fun a => Fin.ext ?_)
  match a with
  | ⟨0, _⟩ => show win0_6.index t (0 : Fin 2) * 1 + 1 * u.val = u.val; rw [e60]; omega
  | ⟨1, _⟩ => show win0_6.index t (1 : Fin 2) * 2048 + 1 * j.val = j.val; rw [e61]; omega

/-- The sampled bias row, read whole. -/
theorem rd7 (u : Fin 1) (j : Fin 2048) :
    iblk m c 7 t (ix2 u j) = V m c main_v7 (ix2 u j) := by
  obtain ⟨e00, e01, e10, e11, e20, e21, e30, e31, e40, e41, e50, e51, e60, e61, e70, e71, e80, e81⟩ := idx_facts t
  show V m c main_v7 (((cfg0.win 7).blk t).view.emb (ix2 u j)) = V m c main_v7 (ix2 u j)
  refine congrArg _ (funext fun a => Fin.ext ?_)
  match a with
  | ⟨0, _⟩ => show win0_7.index t (0 : Fin 2) * 1 + 1 * u.val = u.val; rw [e70]; omega
  | ⟨1, _⟩ => show win0_7.index t (1 : Fin 2) * 2048 + 1 * j.val = j.val; rw [e71]; omega

/-- Where entry `(r, j)` of the output's block lies in the output array. -/
theorem emb8 (hq : t.val / 4 = q.val) (r : Fin 256) (j : Fin 2048) :
    ((cfg0.win 8).blk t).view.emb (ix2 r j) = ix2 (row q r) j := by
  obtain ⟨e00, e01, e10, e11, e20, e21, e30, e31, e40, e41, e50, e51, e60, e61, e70, e71, e80, e81⟩ := idx_facts t
  refine funext fun a => Fin.ext ?_
  match a with
  | ⟨0, _⟩ => show win0_8.index t (0 : Fin 2) * 256 + 1 * r.val = 256 * q.val + r.val; rw [e80, hq]; omega
  | ⟨1, _⟩ => show win0_8.index t (1 : Fin 2) * 2048 + 1 * j.val = j.val; rw [e81]; omega

end Reads

/-- An entry of the output array is in step `t`'s block iff each coordinate is in the block's range on its axis. -/
theorem mem_blk8 (t : Fin cfg0.N) (i : S4096x2048.Idx) :
    i ∈ ((cfg0.win 8).blk t).view.set ↔ ∀ a : Fin 2, win0_8.index t a * S256x2048.size a ≤ (i a).val ∧ (i a).val < win0_8.index t a * S256x2048.size a + S256x2048.size a := by
  show i ∈ ((View.whole main_v8).slice (win0_8.rect t)).set ↔ _
  rw [View.set_slice_whole, Rect.mem_set_unit]
  exact Iff.rfl

/-- Every entry of the output array lies in the block written back at the last step of its row block. -/
theorem cover8 (i : S4096x2048.Idx) :
    ∃ t : Fin cfg0.N, (cfg0.win 8).flush t = true ∧ i ∈ ((cfg0.win 8).blk t).view.set := by
  have hi0 : (i 0).val < 4096 := (i 0).isLt
  have hi1 : (i 1).val < 2048 := (i 1).isLt
  have hN : cfg0.N = 64 := N_0
  have hlt : 4 * ((i 0).val / 256) + 3 < cfg0.N := by rw [hN]; omega
  obtain ⟨e00, e01, e10, e11, e20, e21, e30, e31, e40, e41, e50, e51, e60, e61, e70, e71, e80, e81⟩ := idx_facts ⟨4 * ((i 0).val / 256) + 3, hlt⟩
  refine ⟨⟨4 * ((i 0).val / 256) + 3, hlt⟩, (flush0_8 _).mpr (by show (4 * ((i 0).val / 256) + 3) % 4 = 3; omega), ?_⟩
  rw [mem_blk8]
  intro a
  match a with
  | ⟨0, _⟩ =>
    show win0_8.index ⟨4 * ((i 0).val / 256) + 3, hlt⟩ (0 : Fin 2) * 256 ≤ (i 0).val ∧ (i 0).val < win0_8.index ⟨4 * ((i 0).val / 256) + 3, hlt⟩ (0 : Fin 2) * 256 + 256
    rw [e80]
    show (4 * ((i 0).val / 256) + 3) / 4 * 256 ≤ (i 0).val ∧ (i 0).val < (4 * ((i 0).val / 256) + 3) / 4 * 256 + 256
    omega
  | ⟨1, _⟩ =>
    show win0_8.index ⟨4 * ((i 0).val / 256) + 3, hlt⟩ (1 : Fin 2) * 2048 ≤ (i 1).val ∧ (i 1).val < win0_8.index ⟨4 * ((i 0).val / 256) + 3, hlt⟩ (1 : Fin 2) * 2048 + 2048
    rw [e81]
    omega

end Cert.KernelIdeal.Blocks

end
-- ==== Proof.Fold.lean ====
/-
  The output array after the kernel's run, as the specification's function of the arrays the region finds.

  Within one row block (four consecutive steps) the two scratch sums start, at the first step, from zero plus
  that step's partial products and grow by one stretch's partial products per step. After the fourth step the
  first holds, at local entry `(r, j)`, the sum over all four stretches of `Σ_k x·wl` — the whole mean term of
  batch row `256·q + r` — and the second the whole perturbation term. The same step then stores
  `(mean + r1·pert) + (bl + r2·bs)`, and that block is written back. These sixteen blocks tile the output.
-/
import proofs.«174170_j45114336477600_2_alg».proof.Proof.Gen.KernelIdeal.Value
import proofs.«174170_j45114336477600_2_alg».proof.Proof.Pieces
import proofs.«174170_j45114336477600_2_alg».proof.Proof.AtIndex
import proofs.«174170_j45114336477600_2_alg».proof.Proof.Blocks
import proofs.«174170_j45114336477600_2_alg».proof.Proof.Spec
import Idealize.ShloMosaic.Lib.Pipeline.Value

noncomputable section

namespace Cert.KernelIdeal.Fold

open Cert.KernelIdeal Cert.KernelIdeal.Gen Idealize.ShloMosaic Idealize.ShloMosaic.TcCoe Idealize.SL.Sem
open Idealize.ShloMosaic.Pipeline (Dat)
open Idealize.ShloMosaic.ValueIdx
open Cert.FlipoutDense (row feat ofInt)

/-! ## Each step's effect on the scratch sums and the output block, over that step's blocks (any float reading) -/

section AnyF
variable {F : FTy → Type} [FloatOps F]
variable (m : (ℓ : Loc nD τ sig) → Buf (Elt F) ℓ) (c : Dev nD)

/-- The first step of a run leaves the first sum at zero plus the step's product. -/
theorem sc0_first (n : ℕ) (hb : n < cfg0.N) (acc : Vec F S256x2048 .f32) (h0 : n % 4 = 0) :
    Value.scAt0_0 m c n hb acc = k0_pay4 (iblk m c 0 (⟨n, hb⟩ : Fin cfg0.N)) (iblk m c 2 (⟨n, hb⟩ : Fin cfg0.N)) (k0_pay1 (F := F)) := by
  have h1 : ¬n % 4 = 3 := by omega
  unfold Value.scAt0_0
  rw [dif_pos h0, dif_neg h1]
  exact Found.first_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) _ _

/-- Every later step adds its product to what the step before left in the first sum. -/
theorem sc0_step (n : ℕ) (hb : n < cfg0.N) (acc : Vec F S256x2048 .f32) (h0 : ¬n % 4 = 0) :
    Value.scAt0_0 m c n hb acc = k0_pay4 (iblk m c 0 (⟨n, hb⟩ : Fin cfg0.N)) (iblk m c 2 (⟨n, hb⟩ : Fin cfg0.N)) acc := by
  unfold Value.scAt0_0
  rw [dif_neg h0]
  by_cases h1 : n % 4 = 3
  · rw [dif_pos h1]
    exact Found.first_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc _ _ _
  · rw [dif_neg h1]
    exact Found.first_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) acc _ _ _

/-- The first step of a run leaves the second sum at zero plus the step's product. -/
theorem sc1_first (n : ℕ) (hb : n < cfg0.N) (acc : Vec F S256x2048 .f32) (h0 : n % 4 = 0) :
    Value.scAt0_1 m c n hb acc = k0_pay5 (iblk m c 0 (⟨n, hb⟩ : Fin cfg0.N)) (iblk m c 1 (⟨n, hb⟩ : Fin cfg0.N)) (iblk m c 3 (⟨n, hb⟩ : Fin cfg0.N)) (k0_pay2 (F := F)) := by
  have h1 : ¬n % 4 = 3 := by omega
  unfold Value.scAt0_1
  rw [dif_pos h0, dif_neg h1]
  exact Found.second_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) _ _

/-- Every later step adds its product to what the step before left in the second sum. -/
theorem sc1_step (n : ℕ) (hb : n < cfg0.N) (acc : Vec F S256x2048 .f32) (h0 : ¬n % 4 = 0) :
    Value.scAt0_1 m c n hb acc = k0_pay5 (iblk m c 0 (⟨n, hb⟩ : Fin cfg0.N)) (iblk m c 1 (⟨n, hb⟩ : Fin cfg0.N)) (iblk m c 3 (⟨n, hb⟩ : Fin cfg0.N)) acc := by
  unfold Value.scAt0_1
  rw [dif_neg h0]
  by_cases h1 : n % 4 = 3
  · rw [dif_pos h1]
    exact Found.second_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) _ acc _ _
  · rw [dif_neg h1]
    exact Found.second_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) scM0_0 (Memref.isWhole_whole _) scM0_1 (Memref.isWhole_whole _) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) _ acc _ _

/-- At the last step of a run the output block is the final combination of the two sums AS THAT STEP LEAVES THEM
    with the step's sign blocks and bias rows. -/
theorem out_last (t : Fin cfg0.N) (h3 : t.val % 4 = 3) :
    (outsAt0 m c t.val t.isLt).1
      = k0_pay6 (iblk m c 4 t) (iblk m c 5 t) (iblk m c 6 t) (iblk m c 7 t) (outsAt0 m c t.val t.isLt).2.1 (outsAt0 m c t.val t.isLt).2.2 := by
  have h0 : ¬t.val % 4 = 0 := by omega
  rw [outsAt0_C m c t h0 h3]
  dsimp only
  exact (Found.out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) _ _ _ _).trans
    (congrArg₂ (k0_pay6 (iblk m c 4 t) (iblk m c 5 t) (iblk m c 6 t) (iblk m c 7 t))
      (Found.first_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) _ _ _ _).symm
      (Found.second_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) _ _ _ _).symm)

end AnyF

/-! ## The sums at an entry, with exact arithmetic -/

section Exact
variable (m : (ℓ : Loc nD τ sig) → Buf (Elt Ideal) ℓ) (c : Dev nD)

/-- The blocks a step is given, and the arrays the region finds, at their element types. -/
abbrev bX (t : Fin cfg0.N) : Vec Ideal S256x512 .f32 := iblk m c 0 t
abbrev bS (t : Fin cfg0.N) : Vec Ideal S256x512 .i32 := iblk m c 1 t
abbrev bWl (t : Fin cfg0.N) : Vec Ideal S512x2048 .bf16 := iblk m c 2 t
abbrev bWs (t : Fin cfg0.N) : Vec Ideal S512x2048 .bf16 := iblk m c 3 t
abbrev aX : S4096x2048.Idx → EReal := V m c main_arg0
abbrev aS : S4096x2048.Idx → BitVec 32 := V m c main_arg7
abbrev aR1 : S4096x2048.Idx → BitVec 32 := V m c main_arg8
abbrev aR2 : S4096x2048.Idx → BitVec 32 := V m c main_arg9
abbrev aWl : S2048x2048.Idx → EReal := V m c main_v2
abbrev aWs : S2048x2048.Idx → EReal := V m c main_v3
abbrev aBl : S1x2048.Idx → EReal := V m c main_arg3
abbrev aBs : S1x2048.Idx → EReal := V m c main_v7

/-- What step `n` adds to the first sum at local entry `(r, j)` (zero past the grid). -/
def add1 (n : ℕ) (r : Fin 256) (j : Fin 2048) : EReal :=
  if h : n < cfg0.N then ∑ k : Fin 512, bX m c ⟨n, h⟩ (ix2 r k) * bWl m c ⟨n, h⟩ (ix2 k j) else 0

/-- What step `n` adds to the second sum at local entry `(r, j)`. -/
def add2 (n : ℕ) (r : Fin 256) (j : Fin 2048) : EReal :=
  if h : n < cfg0.N then ∑ k : Fin 512, (bX m c ⟨n, h⟩ (ix2 r k) * ofInt (bS m c ⟨n, h⟩ (ix2 r k))) * bWs m c ⟨n, h⟩ (ix2 k j) else 0

/-- After the last step of a run the first sum is the four steps' addends, from zero. -/
theorem acc1_apply (t : Fin cfg0.N) (h3 : t.val % 4 = 3) (r : Fin 256) (j : Fin 2048) :
    (outsAt0 m c t.val t.isLt).2.1 (ix2 r j) = 0 + ∑ s ∈ Finset.range 4, add1 m c (4 * (t.val / 4) + s) r j := by
  rw [Value.soutsAt0_0_eq m c t]
  have hb0 : (4 * (t.val / 4)) % 4 = 0 := by omega
  have ha : ∀ (h : 4 * (t.val / 4) < cfg0.N) (i : S256x2048.Idx),
      Value.scAt0_0 m c (4 * (t.val / 4)) h (VS0_0.read (Elt Ideal) VS0_0.junk) i = 0 + add1 m c (4 * (t.val / 4)) (i 0) (i 1) := by
    intro h i
    obtain ⟨r', j', rfl⟩ : ∃ (r' : Fin 256) (j' : Fin 2048), i = ix2 r' j' := ⟨i 0, i 1, eq_ix2 i⟩
    rw [sc0_first m c _ h _ hb0]
    refine (AtIndex.step1_apply (bX m c ⟨_, h⟩) (bWl m c ⟨_, h⟩) (k0_pay1 (F := Ideal)) r' j').trans ?_
    rw [AtIndex.zero1_apply]
    unfold add1
    rw [dif_pos h]
  have hg : ∀ (n : ℕ) (h : n < cfg0.N) (acc : S256x2048.Idx → EReal) (i : S256x2048.Idx),
      4 * (t.val / 4) < n → n ≤ 4 * (t.val / 4) + 3 → Value.scAt0_0 m c n h acc i = acc i + add1 m c n (i 0) (i 1) := by
    intro n h acc i hlt hle
    have h0 : ¬n % 4 = 0 := by omega
    obtain ⟨r', j', rfl⟩ : ∃ (r' : Fin 256) (j' : Fin 2048), i = ix2 r' j' := ⟨i 0, i 1, eq_ix2 i⟩
    rw [sc0_step m c n h acc h0]
    refine (AtIndex.step1_apply (bX m c ⟨n, h⟩) (bWl m c ⟨n, h⟩) acc r' j').trans ?_
    unfold add1
    rw [dif_pos h]
  have key : ∀ (e : ℕ) (he : 4 * (t.val / 4) + e < cfg0.N), e = 3 →
      Pipeline.accAt (fun n h => Value.scAt0_0 m c n h (VS0_0.read (Elt Ideal) VS0_0.junk)) (Value.scAt0_0 m c) (4 * (t.val / 4)) e he (ix2 r j)
        = 0 + ∑ s ∈ Finset.range 4, add1 m c (4 * (t.val / 4) + s) r j := by
    intro e he h
    subst h
    exact Pipeline.accAt_add_apply (ι := S256x2048.Idx) (β := EReal) _ _ (fun _ => 0) (fun n y => add1 m c n (y 0) (y 1))
      (4 * (t.val / 4)) 3 ha hg 3 le_rfl he (ix2 r j)
  exact key _ _ h3

/-- After the last step of a run the second sum is the four steps' addends, from zero. -/
theorem acc2_apply (t : Fin cfg0.N) (h3 : t.val % 4 = 3) (r : Fin 256) (j : Fin 2048) :
    (outsAt0 m c t.val t.isLt).2.2 (ix2 r j) = 0 + ∑ s ∈ Finset.range 4, add2 m c (4 * (t.val / 4) + s) r j := by
  rw [Value.soutsAt0_1_eq m c t]
  have hb0 : (4 * (t.val / 4)) % 4 = 0 := by omega
  have ha : ∀ (h : 4 * (t.val / 4) < cfg0.N) (i : S256x2048.Idx),
      Value.scAt0_1 m c (4 * (t.val / 4)) h (VS0_1.read (Elt Ideal) VS0_1.junk) i = 0 + add2 m c (4 * (t.val / 4)) (i 0) (i 1) := by
    intro h i
    obtain ⟨r', j', rfl⟩ : ∃ (r' : Fin 256) (j' : Fin 2048), i = ix2 r' j' := ⟨i 0, i 1, eq_ix2 i⟩
    rw [sc1_first m c _ h _ hb0]
    refine (AtIndex.step2_apply (bX m c ⟨_, h⟩) (bS m c ⟨_, h⟩) (bWs m c ⟨_, h⟩) (k0_pay2 (F := Ideal)) r' j').trans ?_
    rw [AtIndex.zero2_apply]
    unfold add2
    rw [dif_pos h]
  have hg : ∀ (n : ℕ) (h : n < cfg0.N) (acc : S256x2048.Idx → EReal) (i : S256x2048.Idx),
      4 * (t.val / 4) < n → n ≤ 4 * (t.val / 4) + 3 → Value.scAt0_1 m c n h acc i = acc i + add2 m c n (i 0) (i 1) := by
    intro n h acc i hlt hle
    have h0 : ¬n % 4 = 0 := by omega
    obtain ⟨r', j', rfl⟩ : ∃ (r' : Fin 256) (j' : Fin 2048), i = ix2 r' j' := ⟨i 0, i 1, eq_ix2 i⟩
    rw [sc1_step m c n h acc h0]
    refine (AtIndex.step2_apply (bX m c ⟨n, h⟩) (bS m c ⟨n, h⟩) (bWs m c ⟨n, h⟩) acc r' j').trans ?_
    unfold add2
    rw [dif_pos h]
  have key : ∀ (e : ℕ) (he : 4 * (t.val / 4) + e < cfg0.N), e = 3 →
      Pipeline.accAt (fun n h => Value.scAt0_1 m c n h (VS0_1.read (Elt Ideal) VS0_1.junk)) (Value.scAt0_1 m c) (4 * (t.val / 4)) e he (ix2 r j)
        = 0 + ∑ s ∈ Finset.range 4, add2 m c (4 * (t.val / 4) + s) r j := by
    intro e he h
    subst h
    exact Pipeline.accAt_add_apply (ι := S256x2048.Idx) (β := EReal) _ _ (fun _ => 0) (fun n y => add2 m c n (y 0) (y 1))
      (4 * (t.val / 4)) 3 ha hg 3 le_rfl he (ix2 r j)
  exact key _ _ h3

/-- Step `4q + s`'s addend to the first sum is stretch `s` of the mean term of batch row `256·q + r`. -/
theorem add1_eq (q : Fin 16) (s : Fin 4) (r : Fin 256) (j : Fin 2048) :
    add1 m c (4 * q.val + s.val) r j
      = ∑ k : Fin 512, aX m c (ix2 (row q r) (feat s k)) * aWl m c (ix2 (feat s k) j) := by
  have hN : cfg0.N = 64 := N_0
  have h : 4 * q.val + s.val < cfg0.N := by have := q.isLt; have := s.isLt; omega
  have hq : ((⟨4 * q.val + s.val, h⟩ : Fin cfg0.N)).val / 4 = q.val := by show (4 * q.val + s.val) / 4 = q.val; have := s.isLt; omega
  have hs : ((⟨4 * q.val + s.val, h⟩ : Fin cfg0.N)).val % 4 = s.val := by show (4 * q.val + s.val) % 4 = s.val; have := s.isLt; omega
  unfold add1
  rw [dif_pos h]
  refine Finset.sum_congr rfl fun k _ => ?_
  exact congrArg₂ (fun (a b : EReal) => a * b) (Blocks.rd0 m c ⟨4 * q.val + s.val, h⟩ q s hq hs r k)
    (Blocks.rd2 m c ⟨4 * q.val + s.val, h⟩ s hs k j)

/-- Step `4q + s`'s addend to the second sum is stretch `s` of the perturbation term of batch row `256·q + r`. -/
theorem add2_eq (q : Fin 16) (s : Fin 4) (r : Fin 256) (j : Fin 2048) :
    add2 m c (4 * q.val + s.val) r j
      = ∑ k : Fin 512, (aX m c (ix2 (row q r) (feat s k)) * ofInt (aS m c (ix2 (row q r) (feat s k)))) * aWs m c (ix2 (feat s k) j) := by
  have hN : cfg0.N = 64 := N_0
  have h : 4 * q.val + s.val < cfg0.N := by have := q.isLt; have := s.isLt; omega
  have hq : ((⟨4 * q.val + s.val, h⟩ : Fin cfg0.N)).val / 4 = q.val := by show (4 * q.val + s.val) / 4 = q.val; have := s.isLt; omega
  have hs : ((⟨4 * q.val + s.val, h⟩ : Fin cfg0.N)).val % 4 = s.val := by show (4 * q.val + s.val) % 4 = s.val; have := s.isLt; omega
  unfold add2
  rw [dif_pos h]
  refine Finset.sum_congr rfl fun k _ => ?_
  exact congrArg₂ (fun (a b : EReal) => a * b)
    (congrArg₂ (fun (a : EReal) (b : BitVec 32) => a * ofInt b) (Blocks.rd0 m c ⟨4 * q.val + s.val, h⟩ q s hq hs r k)
      (Blocks.rd1 m c ⟨4 * q.val + s.val, h⟩ q s hq hs r k))
    (Blocks.rd3 m c ⟨4 * q.val + s.val, h⟩ s hs k j)

/-- The first sum after a run's last step is the whole mean term of its batch row. -/
theorem acc1_eq (t : Fin cfg0.N) (h3 : t.val % 4 = 3) (q : Fin 16) (hq : t.val / 4 = q.val) (r : Fin 256) (j : Fin 2048) :
    (outsAt0 m c t.val t.isLt).2.1 (ix2 r j) = Cert.FlipoutDense.meanDot (aX m c) (aWl m c) (row q r) j := by
  rw [acc1_apply m c t h3 r j, zero_add, Finset.sum_range, Cert.FlipoutDense.meanDot_blocks, hq]
  exact Finset.sum_congr rfl fun s _ => add1_eq m c q s r j

/-- The second sum after a run's last step is the whole perturbation term of its batch row. -/
theorem acc2_eq (t : Fin cfg0.N) (h3 : t.val % 4 = 3) (q : Fin 16) (hq : t.val / 4 = q.val) (r : Fin 256) (j : Fin 2048) :
    (outsAt0 m c t.val t.isLt).2.2 (ix2 r j)
      = Cert.FlipoutDense.pertDot (aX m c) (aS m c) (aWs m c) (row q r) j := by
  rw [acc2_apply m c t h3 r j, zero_add, Finset.sum_range, Cert.FlipoutDense.pertDot_blocks, hq]
  exact Finset.sum_congr rfl fun s _ => add2_eq m c q s r j

/-- The specification's output, of the arrays as the region finds them. -/
def result : S4096x2048.Idx → EReal :=
  Cert.FlipoutDense.output (aX m c) (aS m c) (aR1 m c) (aR2 m c) (aWl m c) (aWs m c) (aBl m c) (aBs m c)

/-- What a write-back step writes back is its block of the specification's output. -/
theorem flushed_eq (t : Fin cfg0.N) (hf : (cfg0.win 8).flush t = true) :
    (dats m 0 c).flushed 8 t = ((cfg0.win 8).blk t).view.read (Elt Ideal) (result m c) := by
  have h3 : t.val % 4 = 3 := (flush0_8 t).mp hf
  have hN : cfg0.N = 64 := N_0
  have htl : t.val < cfg0.N := t.isLt
  have hq16 : t.val / 4 < 16 := by omega
  rw [Value.flushed8, out_last m c t h3]
  refine funext fun (y : S256x2048.Idx) => ?_
  obtain ⟨r, j, rfl⟩ : ∃ (r : Fin 256) (j : Fin 2048), y = ix2 r j := ⟨y 0, y 1, eq_ix2 y⟩
  show k0_pay6 (iblk m c 4 t) (iblk m c 5 t) (iblk m c 6 t) (iblk m c 7 t) (outsAt0 m c t.val t.isLt).2.1 (outsAt0 m c t.val t.isLt).2.2 (ix2 r j)
      = result m c (((cfg0.win 8).blk t).view.emb (ix2 r j))
  rw [Blocks.emb8 t ⟨t.val / 4, hq16⟩ rfl r j]
  refine (AtIndex.final_apply (iblk m c 4 t) (iblk m c 5 t) (iblk m c 6 t) (iblk m c 7 t) (outsAt0 m c t.val t.isLt).2.1 (outsAt0 m c t.val t.isLt).2.2 r j).trans ?_
  rw [acc1_eq m c t h3 ⟨t.val / 4, hq16⟩ rfl r j, acc2_eq m c t h3 ⟨t.val / 4, hq16⟩ rfl r j,
    Blocks.rd4 m c t ⟨t.val / 4, hq16⟩ rfl r j, Blocks.rd5 m c t ⟨t.val / 4, hq16⟩ rfl r j,
    Blocks.rd6 m c t 0 j, Blocks.rd7 m c t 0 j]
  rfl

/-- The output array after the run is the specification's output. -/
theorem final : (dats m 0 c).arrAt 8 cfg0.N = result m c :=
  (dats m 0 c).arrAt_eq_of_cover 8 (result m c) (fun t hf => flushed_eq m c t hf) Blocks.cover8

end Exact

end Cert.KernelIdeal.Fold

end
-- ==== Proof.RefValue.lean ====
/-
  The reference computes the specification's output.

  Its last stage adds two arrays: the weight part `x·wl + r1 ⊙ ((x ⊙ s)·ws)` (two matrix products over the 2048
  input features, the second of the sign-flipped activations with the sampled weights, then flipped entrywise by
  `r1`) and the bias part `bl + r2 ⊙ bs` with both rows broadcast down the batch. Read at entry `(b, j)` that is
  `(Σₖ x[b,k]·wl[k,j] + r1[b,j]·Σₖ (x[b,k]·s[b,k])·ws[k,j]) + (bl[0,j] + r2[b,j]·bs[j])`. The sampled weights and
  the sampled bias are the reference's own earlier stages (a softplus of the spread parameters times the noise);
  they stay unopened here.
-/
import proofs.«174170_j45114336477600_2_alg».proof.Proof.Gen.ReferenceIdeal.Read
import proofs.«174170_j45114336477600_2_alg».proof.Proof.Spec
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx
open Cert.FlipoutDense (ofInt)

/-- The sampled bias (a vector over the output columns) laid out as a one-row array. -/
def biasRow (x4 : S1x2048.Idx → EReal) (x6 : S2048.Idx → EReal) : S1x2048.Idx → EReal :=
  fun u => val_main_v12 (F := Ideal) x4 x6 (ix1 (u 1))

variable (x0 : S4096x2048.Idx → EReal) (x1 x2 : S2048x2048.Idx → EReal) (x3 x4 : S1x2048.Idx → EReal)
  (x5 : S2048x2048.Idx → EReal) (x6 : S2048.Idx → EReal) (x7 x8 x9 : S4096x2048.Idx → BitVec 32)

/-- The first matrix product at entry `(b, j)` is the mean term. -/
theorem mean_eq (b : Fin 4096) (j : Fin 2048) :
    val_main_v8 (F := Ideal) x0 x1 (ix2 b j) = Cert.FlipoutDense.meanDot x0 x1 b j := by
  rw [val_main_v8_apply]
  refine Finset.sum_congr rfl fun k _ => ?_
  have el : lidx_main_v8 (ix2 b j) k = ix2 b k := funext fun a => Fin.ext (by
    match a with
    | ⟨0, _⟩ => rfl
    | ⟨1, _⟩ => rfl)
  have er : ridx_main_v8 (ix2 b j) k = ix2 k j := funext fun a => Fin.ext (by
    match a with
    | ⟨0, _⟩ => rfl
    | ⟨1, _⟩ => rfl)
  rw [el, er]

/-- The second matrix product at entry `(b, j)` is the perturbation term over the reference's sampled weights. -/
theorem pert_eq (b : Fin 4096) (j : Fin 2048) :
    val_main_v6 (F := Ideal) x0 x2 x5 x7 (ix2 b j)
      = Cert.FlipoutDense.pertDot x0 x7 (val_main_v4 (F := Ideal) x2 x5) b j := by
  rw [val_main_v6_apply]
  refine Finset.sum_congr rfl fun k _ => ?_
  have el : lidx_main_v6 (ix2 b j) k = ix2 b k := funext fun a => Fin.ext (by
    match a with
    | ⟨0, _⟩ => rfl
    | ⟨1, _⟩ => rfl)
  have er : ridx_main_v6 (ix2 b j) k = ix2 k j := funext fun a => Fin.ext (by
    match a with
    | ⟨0, _⟩ => rfl
    | ⟨1, _⟩ => rfl)
  rw [el, er]
  rfl

/-- The mean bias broadcast down the batch, at entry `(b, j)`. -/
theorem bl_eq (b : Fin 4096) (j : Fin 2048) : val_main_v16 (F := Ideal) x3 (ix2 b j) = x3 (ix2 0 j) := by
  rw [val_main_v16_apply]
  exact congrArg x3 (funext fun a => Fin.ext (by
    match a with
    | ⟨0, _⟩ => rfl
    | ⟨1, _⟩ => rfl))

/-- The sampled bias broadcast down the batch, at entry `(b, j)`. -/
theorem bs_eq (b : Fin 4096) (j : Fin 2048) : val_main_v14 (F := Ideal) x4 x6 (ix2 b j) = biasRow x4 x6 (ix2 0 j) := by
  rw [val_main_v14_apply, val_main_v13_apply]
  exact congrArg (val_main_v12 (F := Ideal) x4 x6) (funext fun a => Fin.ext (by
    match a with
    | ⟨0, _⟩ => rfl))

/-- The reference's result is the specification's output of its arguments, its own sampled weights and sampled bias. -/
theorem result_eq :
    val_main_v18 (F := Ideal) x0 x1 x2 x3 x4 x5 x6 x7 x8 x9
      = Cert.FlipoutDense.output x0 x7 x8 x9 x1 (val_main_v4 (F := Ideal) x2 x5) x3 (biasRow x4 x6) := by
  funext i
  obtain ⟨b, j, rfl⟩ : ∃ (b : Fin 4096) (j : Fin 2048), i = ix2 b j := ⟨i 0, i 1, eq_ix2 i⟩
  show (val_main_v8 (F := Ideal) x0 x1 (ix2 b j) + ofInt (x8 (ix2 b j)) * val_main_v6 (F := Ideal) x0 x2 x5 x7 (ix2 b j))
      + (val_main_v16 (F := Ideal) x3 (ix2 b j) + ofInt (x9 (ix2 b j)) * val_main_v14 (F := Ideal) x4 x6 (ix2 b j)) = _
  rw [mean_eq, pert_eq, bl_eq, bs_eq]
  rfl

end Cert.ReferenceIdeal.RefValue

end
-- ==== Proof.Host.lean ====
/-
  What the arrays the region finds are, in terms of the program's arguments.

  Before the region the host program prepares three arrays. The mean weights are only re-typed to the narrower
  float format, which changes nothing on exact values. The sampled weights are `softplus(w_std) ⊙ eps_w`, then
  re-typed likewise; the sampled bias is `softplus(b_std row) ⊙ eps_b`, laid out as a one-row array. The host
  operations that compute the two samples are the very operations the reference applies to the same arguments,
  so each sample IS the reference's corresponding stage of those arguments; the softplus is never opened.
  The other five arrays are arguments no host operation writes.
-/
import proofs.«174170_j45114336477600_2_alg».proof.Proof.Fold
import proofs.«174170_j45114336477600_2_alg».proof.Proof.RefValue
import Idealize.ShloMosaic.Lib.StableHlo.Run
import Idealize.ShloMosaic.Lib.ValueLayout

noncomputable section

namespace Cert.KernelIdeal.Host

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- The mean weights the region finds are the mean-weight argument. -/
theorem wl_eq : Fold.aWl m c = m ((c : Thread nD τ).loc main_arg1) := by
  show V m c main_v2 = _
  dsimp only [V]
  simp only [hostOps0, hostOps0_1, hostOps0_2, hostOps0_3, List.flatten_cons, List.flatten_nil, List.append_nil, List.cons_append,
    List.nil_append]
  after_results
  rfl

set_option maxHeartbeats 2000000 in
/-- The sampled weights the region finds are the reference's sampled-weight stage of the same two arguments. -/
theorem ws_eq : Fold.aWs m c
    = Cert.ReferenceIdeal.Read.val_main_v4 (F := Ideal) (m ((c : Thread nD τ).loc main_arg2)) (m ((c : Thread nD τ).loc main_arg5)) := by
  show V m c main_v3 = _
  dsimp only [V]
  simp only [hostOps0, hostOps0_1, hostOps0_2, hostOps0_3, List.flatten_cons, List.flatten_nil, List.append_nil, List.cons_append,
    List.nil_append]
  after_results_simp
  rfl

set_option maxHeartbeats 2000000 in
/-- The sampled bias row the region finds is the reference's sampled-bias stage of the same two arguments, as a row. -/
theorem bs_eq : Fold.aBs m c
    = Cert.ReferenceIdeal.RefValue.biasRow (m ((c : Thread nD τ).loc main_arg4)) (m ((c : Thread nD τ).loc main_arg6)) := by
  have e : (V m c main_v7 : S1x2048.Idx → EReal)
      = shapeCast S1x2048 (Cert.ReferenceIdeal.Read.val_main_v12 (F := Ideal) (m ((c : Thread nD τ).loc main_arg4)) (m ((c : Thread nD τ).loc main_arg6)))
          shapeCasts_S2048_S1x2048 := by
    dsimp only [V]
    simp only [hostOps0, hostOps0_1, hostOps0_2, hostOps0_3, List.flatten_cons, List.flatten_nil, List.append_nil, List.cons_append,
      List.nil_append]
    after_results_simp
    rfl
  show V m c main_v7 = _
  rw [e]
  funext u
  obtain ⟨u0, j, rfl⟩ : ∃ (u0 : Fin 1) (j : Fin 2048), u = ix2 u0 j := ⟨u 0, u 1, eq_ix2 u⟩
  exact shapeCast_a_1a_apply _ shapeCasts_S2048_S1x2048 u0 j

/-- The kernel's output array, as the specification's output of the program's arguments and the reference's two sample stages. -/
theorem result_eq : Fold.result m c
    = Cert.FlipoutDense.output (m ((c : Thread nD τ).loc main_arg0)) (m ((c : Thread nD τ).loc main_arg7))
        (m ((c : Thread nD τ).loc main_arg8)) (m ((c : Thread nD τ).loc main_arg9)) (m ((c : Thread nD τ).loc main_arg1))
        (Cert.ReferenceIdeal.Read.val_main_v4 (F := Ideal) (m ((c : Thread nD τ).loc main_arg2)) (m ((c : Thread nD τ).loc main_arg5)))
        (m ((c : Thread nD τ).loc main_arg3))
        (Cert.ReferenceIdeal.RefValue.biasRow (m ((c : Thread nD τ).loc main_arg4)) (m ((c : Thread nD τ).loc main_arg6))) := by
  unfold Fold.result
  rw [wl_eq, ws_eq, bs_eq]
  show Cert.FlipoutDense.output (V m c main_arg0) (V m c main_arg7) (V m c main_arg8) (V m c main_arg9) _ _ (V m c main_arg3) _ = _
  rw [V_main_arg0, V_main_arg7, V_main_arg8, V_main_arg9, V_main_arg3]

end Cert.KernelIdeal.Host

end
-- ==== Proof.lean ====
/-
  A Bayesian dense layer with flipout perturbations, computed two ways, gives one result.

  For a batch of 4096 rows of 2048 features and 2048 output columns, both programs compute, entry by entry,
      out[b, j] = ( Σₖ x[b,k]·wl[k,j]  +  r1[b,j] · Σₖ (x[b,k]·s[b,k])·ws[k,j] )  +  ( bl[0,j] + r2[b,j]·bs[j] ),
  where `ws = softplus(w_std) ⊙ eps_w` and `bs = softplus(b_std) ⊙ eps_b` are the sampled perturbations and
  `s`, `r1`, `r2` are integer sign arrays.

  The reference forms the two sums as whole matrix products. The kernel walks each block of 256 batch rows in
  four steps of 512 features, keeping the two partial sums in scratch memory (zeroed at the first step), and at
  the fourth step combines them with the signs and the bias rows and writes the block out; the two samples are
  prepared before the kernel by the same host operations the reference uses. On exact values (extended reals)
  re-typing a float is the identity and a matrix product is a plain sum of products, so the only difference left
  is that a sum over 2048 features is taken as four consecutive sums of 512 — a regrouping of a finite sum,
  which needs nothing about finiteness of the entries.

  The three frame claims are the generated frames (the reference's is its generated run with the result dropped);
  the idealization rewrote nothing, so `preserves` is trivial.
-/
import proofs.«174170_j45114336477600_2_alg».proof.Defs
import proofs.«174170_j45114336477600_2_alg».proof.Proof.Gen.Kernel
import proofs.«174170_j45114336477600_2_alg».proof.Proof.Gen.Kernel.Skeleton
import proofs.«174170_j45114336477600_2_alg».proof.Proof.Gen.Kernel.Launch
import proofs.«174170_j45114336477600_2_alg».proof.Proof.Gen.Kernel.Points
import proofs.«174170_j45114336477600_2_alg».proof.Proof.Gen.Kernel.Frame
import proofs.«174170_j45114336477600_2_alg».proof.Proof.Gen.KernelIdeal
import proofs.«174170_j45114336477600_2_alg».proof.Proof.Gen.KernelIdeal.Skeleton
import proofs.«174170_j45114336477600_2_alg».proof.Proof.Gen.KernelIdeal.Launch
import proofs.«174170_j45114336477600_2_alg».proof.Proof.Gen.KernelIdeal.Points
import proofs.«174170_j45114336477600_2_alg».proof.Proof.Gen.KernelIdeal.Frame
import proofs.«174170_j45114336477600_2_alg».proof.Proof.Gen.ReferenceIdeal
import proofs.«174170_j45114336477600_2_alg».proof.Proof.Gen.KernelIdeal.Value
import proofs.«174170_j45114336477600_2_alg».proof.Proof.Gen.ReferenceIdeal.Run
import proofs.«174170_j45114336477600_2_alg».proof.Proof.Gen.ReferenceIdeal.Read
import proofs.«174170_j45114336477600_2_alg».proof.Proof.Gen.Pre_finite_inputs
import proofs.«174170_j45114336477600_2_alg».proof.Proof.Fold
import proofs.«174170_j45114336477600_2_alg».proof.Proof.RefValue
import proofs.«174170_j45114336477600_2_alg».proof.Proof.Host
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the layer's output of the shared arguments: the kernel's by the fold of its four steps per
    row block and the tiling of the output by the written-back blocks, the reference's by reading its last stage
    entry by entry; the two sample arrays are the same stage terms on both sides. -/
theorem algebraic : Cert.algebraic_KernelIdeal_ReferenceIdeal := by
  intro m ρ m' ρ' _ hagree
  refine ⟨fun c => Cert.FlipoutDense.output
      (m ((c.tc : Thread Cert.KernelIdeal.nD Cert.KernelIdeal.τ).loc Cert.KernelIdeal.main_arg0))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg1))
      (Cert.ReferenceIdeal.Read.val_main_v4 (F := Ideal)
        (m ((c.tc : Thread Cert.KernelIdeal.nD Cert.KernelIdeal.τ).loc Cert.KernelIdeal.main_arg2))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg3))
      (Cert.ReferenceIdeal.RefValue.biasRow
        (m ((c.tc : Thread Cert.KernelIdeal.nD Cert.KernelIdeal.τ).loc Cert.KernelIdeal.main_arg4))
        (m ((c.tc : Thread Cert.KernelIdeal.nD Cert.KernelIdeal.τ).loc Cert.KernelIdeal.main_arg6))), ?_, ?_⟩
  · exact (θ_run Cert.KernelIdeal.defs _ _).mono
      (fun r h c => ⟨(h c).1.trans ((Cert.KernelIdeal.Fold.final m c).trans (Cert.KernelIdeal.Host.result_eq m c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v18_eq, Cert.ReferenceIdeal.RefValue.result_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
